-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v50) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩

class Facts : Prop where
  bcast_S_S50000x256 : S_.BroadcastsInDim S50000x256 (![] : Fin 0 → Fin S50000x256.rank)
  reducesTo_S50000x256_S_d0_1 : S50000x256.ReducesTo [0, 1] S_
  h_S_ : 0 < S_.numel
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part1 {F : FTy → Type} [FloatOps F] (main_arg6 : FVec F S256x256 .f32) (main_arg7 : FVec F S256x256 .f32) (main_arg8 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256x256 .f32 := Host.absf main_arg7
  let main_cst_8 : FVec F S_ .f32 := constant S_ .f32 0x7F800000#32
  let main_v25 : FVec F S256x256 .f32 := broadcastInDim S256x256 ![] bcast_S_S256x256 main_cst_8
  let main_v26 : IVec S256x256 1 := cmpf .olt main_v24 main_v25
  let main_c_9 : IVec S_ 1 := constantI S_ 1 1#1
  let main_v27 : IVec S_ 1 := (fun x v => Host.reduce IntOp.andi x v reducesTo_S256x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  main_v33

def fn {F : FTy → Type} [FloatOps F] (main_arg0 : FVec F S50000x256 .f32) (main_arg1 : IVec S800000 32) (main_arg2 : IVec S800000 32) (main_arg3 : FVec F S256x256 .f32) (main_arg4 : FVec F S256x256 .f32) (main_arg5 : FVec F S256 .f32) (main_arg6 : FVec F S256x256 .f32) (main_arg7 : FVec F S256x256 .f32) (main_arg8 : FVec F S256 .f32) : IVec S_ 1 :=
  let main_v0 : FVec F S50000x256 .f32 := Host.absf main_arg0
  let main_cst : FVec F S_ .f32 := constant S_ .f32 0x7F800000#32
  let main_v1 : FVec F S50000x256 .f32 := broadcastInDim S50000x256 ![] bcast_S_S50000x256 main_cst
  let main_v2 : IVec S50000x256 1 := cmpf .olt main_v0 main_v1
  let main_c : IVec S_ 1 := constantI S_ 1 1#1
  let main_v3 : IVec S_ 1 := (fun x v => Host.reduce IntOp.andi x v reducesTo_S50000x256_S_d0_1 h_S_) main_v2 main_c
  let main_v4 : FVec F S256x256 .f32 := Host.absf main_arg3
  let main_cst_0 : FVec F S_ .f32 := constant S_ .f32 0x7F800000#32
  let main_v5 : FVec F S256x256 .f32 := broadcastInDim S256x256 ![] bcast_S_S256x256 main_cst_0
  let main_v6 : IVec S256x256 1 := cmpf .olt main_v4 main_v5
  let main_c_1 : IVec S_ 1 := constantI S_ 1 1#1
  let main_v7 : IVec S_ 1 := (fun x v => Host.reduce IntOp.andi x v reducesTo_S256x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_v13 main_v16
-- ==== Kernel.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S2000x256 : Shape := ⟨2, ![2000, 256]⟩
abbrev S1x256 : Shape := ⟨2, ![1, 256]⟩

abbrev nBuf : Space → Nat
  | .hbm => 62
  | .vmem => 18
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x256, .f32⟩
  | .hbm, ⟨54, _⟩ => ⟨S_, .f32⟩
  | .hbm, ⟨55, _⟩ => ⟨S50000x256, .f32⟩
  | .hbm, ⟨56, _⟩ => ⟨S800000x1, .i32⟩
  | .hbm, ⟨57, _⟩ => ⟨S50000x256, .f32⟩
  | .hbm, ⟨58, _⟩ => ⟨S50000x1, .f32⟩
  | .hbm, ⟨59, _⟩ => ⟨S50000x256, .f32⟩
  | .hbm, ⟨60, _⟩ => ⟨S50000x256, .f32⟩
  | .hbm, ⟨61, _⟩ => ⟨S50000x256, .f32⟩
  | .local _ .vmem, ⟨0, _⟩ => ⟨S2000x256, .f32⟩
  | .local _ .vmem, ⟨1, _⟩ => ⟨S2000x256, .f32⟩
  | .local _ .vmem, ⟨2, _⟩ => ⟨S2000x256, .f32⟩
  | .local _ .vmem, ⟨3, _⟩ => ⟨S2000x256, .f32⟩
  | .local _ .vmem, ⟨4, _⟩ => ⟨S256x256, .f32⟩
  | .local _ .vmem, ⟨5, _⟩ => ⟨S256x256, .f32⟩
  | .local _ .vmem, ⟨6, _⟩ => ⟨S256, .f32⟩
  | .local _ .vmem, ⟨7, _⟩ => ⟨S2000x256, .f32⟩
  | .local _ .vmem, ⟨8, _⟩ => ⟨S2000x256, .f32⟩
  | .local _ .vmem, ⟨9, _⟩ => ⟨S2000x256, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S256x256, .f32⟩
  | .local _ .vmem, ⟨14, _⟩ => ⟨S256x256, .f32⟩
  | .local _ .vmem, ⟨15, _⟩ => ⟨S256, .f32⟩
  | .local _ .vmem, ⟨16, _⟩ => ⟨S2000x256, .f32⟩
  | .local _ .vmem, ⟨17, _⟩ => ⟨S2000x256, .f32⟩
  | _, _ => ⟨S50000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_c_7 : Ref sig .tc := ⟨.hbm, 45, rfl⟩
abbrev main_v25 : Ref sig .tc := ⟨.hbm, 46, rfl⟩
abbrev main_v26 : Ref sig .tc := ⟨.hbm, 47, rfl⟩
abbrev main_c_8 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S256x256 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  shapeCasts_S2000x256_S2000x256 : S2000x256.ShapeCasts S2000x256
  inb_S256x256_S256x256_0_0 : ∀ a, (![0, 0] : Fin 2 → Nat) a + S256x256.size a ≤ S256x256.size a
  h_S256x256 : 0 < S256x256.numel
  inb_S256_S256_0 : ∀ a, (![0] : Fin 1 → Nat) a + S256.size a ≤ S256.size a
  h_S256 : 0 < S256.numel
  shapeCasts_S256_S1x256 : S256.ShapeCasts S1x256
  broadcasts_S1x256_S2000x256 : S1x256.Broadcasts S2000x256
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S50000x256.size a
  hwx0_0 : ∀ i : grid0.Coords, EltTy.bits .f32 = 32 ∨ (Rect.block (s := S50000x256) S2000x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x256.size a ≤ S50000x256.size a
  hwx0_1 : ∀ i : grid0.Coords, EltTy.bits .f32 = 32 ∨ (Rect.block (s := S50000x256) S2000x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x256.size a ≤ S256x256.size a
  hwx0_3 : ∀ i : grid0.Coords, EltTy.bits .f32 = 32 ∨ (Rect.block (s := S256x256) S256x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S256.size a ≤ S256.size a
  hwx0_4 : ∀ i : grid0.Coords, EltTy.bits .f32 = 32 ∨ (Rect.block (s := S256) S256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x256.size a ≤ S50000x256.size a
  hwx0_5 : ∀ i : grid0.Coords, EltTy.bits .f32 = 32 ∨ (Rect.block (s := S50000x256) S2000x256.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S50000x256.size a
  hwx1_0 : ∀ i : grid1.Coords, EltTy.bits .f32 = 32 ∨ (Rect.block (s := S50000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x256.size a ≤ S50000x256.size a
  hwx1_1 : ∀ i : grid1.Coords, EltTy.bits .f32 = 32 ∨ (Rect.block (s := S50000x256) S2000x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x256.size a ≤ S256x256.size a
  hwx1_2 : ∀ i : grid1.Coords, EltTy.bits .f32 = 32 ∨ (Rect.block (s := S256x256) S256x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S256.size a ≤ S256.size a
  hwx1_4 : ∀ i : grid1.Coords, EltTy.bits .f32 = 32 ∨ (Rect.block (s := S256) S256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S50000x256.size a
  hwx1_5 : ∀ i : grid1.Coords, EltTy.bits .f32 = 32 ∨ (Rect.block (s := S50000x256) S2000x256.size (cc1_transform_5 i) (hinb1_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v23) S2000x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S256x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v24) S2000x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v24) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v37) S2000x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg6) S256x256.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg7) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg8) S256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v38) S2000x256.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S50000x256 : Shape := ⟨2, ![50000, 256]⟩
abbrev S800000 : Shape := ⟨1, ![800000]⟩
abbrev S256x256 : Shape := ⟨2, ![256, 256]⟩
abbrev S256 : Shape := ⟨1, ![256]⟩
abbrev S_ : Shape := ⟨0, ![]⟩
abbrev S50000 : Shape := ⟨1, ![50000]⟩
abbrev S800000x1 : Shape := ⟨2, ![800000, 1]⟩
abbrev S800000x256 : Shape := ⟨2, ![800000, 256]⟩
abbrev S50000x1 : Shape := ⟨2, ![50000, 1]⟩
abbrev S1x256 : Shape := ⟨2, ![1, 256]⟩

abbrev nBuf : Space → Nat
  | .hbm => 78
  | .vmem => 0
  | .smem => 0
  | _ => 0

abbrev bufTy : (tb : Table) → Fin (tcTables nBuf tb) → BufTy
  | .hbm, ⟨0, _⟩ => ⟨S50000x256, .f32⟩
  | .hbm, ⟨1, _⟩ => ⟨S800000, .i32⟩
  | .hbm, ⟨2, _⟩ => ⟨S800000, .i32⟩
  | .hbm, ⟨3, _⟩ => ⟨S256x256, .f32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256x256, .f32⟩
  | .hbm, ⟨8, _⟩ => ⟨S256, .f32⟩
  | .hbm, ⟨9, _⟩ => ⟨S_, .f32⟩
  | .hbm, ⟨10, _⟩ => ⟨S800000, .f32⟩
  | .hbm, ⟨11, _⟩ => ⟨S_, .f32⟩
  | .hbm, ⟨12, _⟩ => ⟨S50000, .f32⟩
  | .hbm, ⟨13, _⟩ => ⟨S800000x1, .i32⟩
  | .hbm, ⟨14, _⟩ => ⟨S50000, .f32⟩
  | .hbm, ⟨15, _⟩ => ⟨S_, .f32⟩
  | .hbm, ⟨16, _⟩ => ⟨S50000, .f32⟩
  | .hbm, ⟨17, _⟩ => ⟨S50000, .i1⟩
  | .hbm, ⟨18, _⟩ => ⟨S_, .f32⟩
  | .hbm, ⟨19, _⟩ => ⟨S50000, .f32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S_, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .i32⟩
  | .hbm, ⟨29, _⟩ => ⟨S800000, .i32⟩
  | .hbm, ⟨30, _⟩ => ⟨S800000, .i1⟩
  | .hbm, ⟨31, _⟩ => ⟨S_, .i32⟩
  | .hbm, ⟨32, _⟩ => ⟨S800000, .i32⟩
  | .hbm, ⟨33, _⟩ => ⟨S800000, .i32⟩
  | .hbm, ⟨34, _⟩ => ⟨S800000, .i32⟩
  | .hbm, ⟨35, _⟩ => ⟨S800000x1, .i32⟩
  | .hbm, ⟨36, _⟩ => ⟨S800000x256, .f32⟩
  | .hbm, ⟨37, _⟩ => ⟨S_, .f32⟩
  | .hbm, ⟨38, _⟩ => ⟨S50000x256, .f32⟩
  | .hbm, ⟨39, _⟩ => ⟨S800000x1, .i32⟩
  | .hbm, ⟨40, _⟩ => ⟨S50000x256, .f32⟩
  | .hbm, ⟨41, _⟩ => ⟨S50000x1, .f32⟩
  | .hbm, ⟨42, _⟩ => ⟨S50000x256, .f32⟩
  | .hbm, ⟨43, _⟩ => ⟨S50000x256, .f32⟩
  | .hbm, ⟨44, _⟩ => ⟨S50000x256, .f32⟩
  | .hbm, ⟨45, _⟩ => ⟨S50000x256, .f32⟩
  | .hbm, ⟨46, _⟩ => ⟨S50000x256, .f32⟩
  | .hbm, ⟨47, _⟩ => ⟨S1x256, .f32⟩
  | .hbm, ⟨48, _⟩ => ⟨S50000x256, .f32⟩
  | .hbm, ⟨49, _⟩ => ⟨S50000x256, .f32⟩
  | .hbm, ⟨50, _⟩ => ⟨S_, .f32⟩
  | .hbm, ⟨51, _⟩ => ⟨S50000x256, .f32⟩
  | .hbm, ⟨52, _⟩ => ⟨S50000x256, .f32⟩
  | .hbm, ⟨53, _⟩ => ⟨S_, .i32⟩
  | .hbm, ⟨54, _⟩ => ⟨S800000, .i32⟩
  | .hbm, ⟨55, _⟩ => ⟨S800000, .i1⟩
  | .hbm, ⟨56, _⟩ => ⟨S_, .i32⟩
  | .hbm, ⟨57, _⟩ => ⟨S800000, .i32⟩
  | .hbm, ⟨58, _⟩ => ⟨S800000, .i32⟩
  | .hbm, ⟨59, _⟩ => ⟨S800000, .i32⟩
  | .hbm, ⟨60, _⟩ => ⟨S800000x1, .i32⟩
  | .hbm, ⟨61, _⟩ => ⟨S800000x256, .f32⟩
  | .hbm, ⟨62, _⟩ => ⟨S_, .f32⟩
  | .hbm, ⟨63, _⟩ => ⟨S50000x256, .f32⟩
  | .hbm, ⟨64, _⟩ => ⟨S800000x1, .i32⟩
  | .hbm, ⟨65, _⟩ => ⟨S50000x256, .f32⟩
  | .hbm, ⟨66, _⟩ => ⟨S50000x1, .f32⟩
  | .hbm, ⟨67, _⟩ => ⟨S50000x256, .f32⟩
  | .hbm, ⟨68, _⟩ => ⟨S50000x256, .f32⟩
  | .hbm, ⟨69, _⟩ => ⟨S50000x256, .f32⟩
  | .hbm, ⟨70, _⟩ => ⟨S50000x256, .f32⟩
  | .hbm, ⟨71, _⟩ => ⟨S50000x256, .f32⟩
  | .hbm, ⟨72, _⟩ => ⟨S1x256, .f32⟩
  | .hbm, ⟨73, _⟩ => ⟨S50000x256, .f32⟩
  | .hbm, ⟨74, _⟩ => ⟨S50000x256, .f32⟩
  | .hbm, ⟨75, _⟩ => ⟨S_, .f32⟩
  | .hbm, ⟨76, _⟩ => ⟨S50000x256, .f32⟩
  | .hbm, ⟨77, _⟩ => ⟨S50000x256, .f32⟩
  | _, _ => ⟨S50000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_cst_0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_cst_2 : Ref sig .tc := ⟨.hbm, 18, rfl⟩
abbrev main_v6 : Ref sig .tc := ⟨.hbm, 19, rfl⟩
abbrev main_v7 : Ref sig .tc := ⟨.hbm, 20, rfl⟩
abbrev main_cst_3 : Ref sig .tc := ⟨.hbm, 21, rfl⟩
abbrev main_v8 : Ref sig .tc := ⟨.hbm, 22, rfl⟩
abbrev main_v9 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v10 : Ref sig .tc := ⟨.hbm, 27, rfl⟩
abbrev main_c : Ref sig .tc := ⟨.hbm, 28, rfl⟩
abbrev main_v11 : Ref sig .tc := ⟨.hbm, 29, rfl⟩
abbrev main_v12 : Ref sig .tc := ⟨.hbm, 30, rfl⟩
abbrev main_c_5 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_cst_6 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_call1_cst : Ref sig .tc := ⟨.hbm, 50, rfl⟩
abbrev main_call1_v0 : Ref sig .tc := ⟨.hbm, 51, rfl⟩
abbrev main_v30 : Ref sig .tc := ⟨.hbm, 52, rfl⟩
abbrev main_c_7 : Ref sig .tc := ⟨.hbm, 53, rfl⟩
abbrev main_v31 : Ref sig .tc := ⟨.hbm, 54, rfl⟩
abbrev main_v32 : Ref sig .tc := ⟨.hbm, 55, rfl⟩
abbrev main_c_8 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_9 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_call2_cst : Ref sig .tc := ⟨.hbm, 75, rfl⟩
abbrev main_call2_v0 : Ref sig .tc := ⟨.hbm, 76, rfl⟩
abbrev main_v50 : Ref sig .tc := ⟨.hbm, 77, rfl⟩

abbrev nD : Nat := 1
abbrev τ : Topo := Topo.v7x

variable {F : FTy → Type} [FloatOps F]

class Facts₀ : Prop where
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S50000x256 : S_.BroadcastsInDim S50000x256 (![] : Fin 0 → Fin S50000x256.rank)
  bcast_S50000_S50000x1_0 : S50000.BroadcastsInDim S50000x1 (![0] : Fin 1 → Fin S50000x1.rank)
  bcast_S50000x1_S50000x256_0_1 : S50000x1.BroadcastsInDim S50000x256 (![0, 1] : Fin 2 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  scatter_S50000_S800000x1_S800000_n_0_0_1_wf : ScatterDims.WF S50000 S800000x1 S800000 [] [0] [0] 1
  gather_S50000x256_S800000x1_S800000x256_1_0_n_n_0_1_1256_wf : GatherDims.WF S50000x256 S800000x1 S800000x256 [1] [0] [] [0] [] 1 ![1, 256]
  scatter_S50000x256_S800000x1_S800000x256_1_0_0_1_wf : ScatterDims.WF S50000x256 S800000x1 S800000x256 [1] [0] [0] 1
  dot_S50000x256_S256x256_S50000x256_1_0_0_1_n_n_wf : DotDims.WF S50000x256 S256x256 S50000x256 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x256_S800000x1_S800000x256_1_0_n_n_0_1_1256 : GatherDims S50000x256 S800000x1 S800000x256 where
  offsetDims := [1]
  collapsedSliceDims := [0]
  operandBatchingDims := []
  startIndicesBatchingDims := []
  startIndexMap := [0]
  indexVectorDim := 1
  sliceSizes := ![1, 256]
  wf := gather_S50000x256_S800000x1_S800000x256_1_0_n_n_0_1_1256_wf
def scatter_S50000x256_S800000x1_S800000x256_1_0_0_1 : ScatterDims S50000x256 S800000x1 S800000x256 where
  updateWindowDims := [1]
  insertedWindowDims := [0]
  scatterDimsToOperandDims := [0]
  indexVectorDim := 1
  wf := scatter_S50000x256_S800000x1_S800000x256_1_0_0_1_wf
def dot_S50000x256_S256x256_S50000x256_1_0_0_1_n_n : DotDims S50000x256 S256x256 S50000x256 where
  lhsContracting := [1]
  rhsContracting := [0]
  lhsNonContracting := [0]
  rhsNonContracting := [1]
  lhsBatch := []
  rhsBatch := []
  wf := dot_S50000x256_S256x256_S50000x256_1_0_0_1_n_n_wf

class Facts : Prop extends Facts₀ where

variable [Facts]
-- ==== Proof.KernelRun.lean ====
/-
  The idealized kernel program's run with its result named. The program is six stretches: the host operations that
  compute the inverse in-degree and the first layer's averaged neighbour rows, the first dense stage on the matrix
  unit, the host operations that average the second layer's neighbour rows, and the second dense stage. Every weakly
  fair execution from a memory with zero counters terminates without a fault, leaves the nine argument arrays as they
  were, and leaves the result array at what the fold of the six stretches' buffer contents holds there — the second
  dense stage's output array once each of its 25 row blocks has been written back.
-/
import proofs.«115937_j10204842295688_1_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run: the six stretches in order from the launch memory; the last stretch's buffer contents read against the
    final state give the result array and each argument array. -/
theorem run : θ_run defs (onTc (τ := τ) (main (F := F))) ⟨m, fun _ => 0, ρ⟩ (fun r => ∀ c : Dev nD,
      r.2.mem ((c.tc : Thread nD τ).loc main_v38) = W6 m ρ c (Proc.devRef .tc main_v38)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v38 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c)⟩)

end Cert.KernelIdeal.RunValue

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibPlainDot.lean ====
/-
  The host's plain matrix product `[a, n] × [n, b]` (a `stablehlo.dot_general` contracting the left operand's columns
  with the right operand's rows, no batch axis) read at an entry on the extended reals: entry `(r, j)` is the sum over
  `k` of the left operand at `(r, k)` times the right operand at `(k, j)`. General over the three extents, the two
  operand formats and the precision.
-/
import proofs.«115937_j10204842295688_1_alg».proof.Proof.LibPlainMatmul

noncomputable section

open scoped BigOperators

namespace Cert.LibPlainDot

open Idealize.ShloMosaic Idealize.ShloMosaic.ValueIdx

variable {a n b : ℕ}

/-- The host's plain matrix product, at entry `(r, j)`, is `Σₖ A (r, k) · B (k, j)`. -/
theorem dotGeneral_apply {φ₁ φ₂ : FTy} (prec : Option ContractPrecision) (A : FVec Ideal ⟨2, ![a, n]⟩ φ₁)
    (B : FVec Ideal ⟨2, ![n, b]⟩ φ₂) (r : Fin a) (j : Fin b) :
    Host.dotGeneral (DotDims.plain a n b) prec A B (ix2 r j) = ∑ k : Fin n, A (ix2 r k) * B (ix2 k j) := by
  show FloatOps.dotGeneral (DotDims.plain a n b) prec .single A B (ix2 r j) = _
  rw [Ideal.dotGeneral_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact Cert.LibPlainMatmul.lhs_row _ _
      | ⟨1, _⟩ => exact (Cert.LibPlainMatmul.lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (Cert.LibPlainMatmul.rhs_row _ _).trans hk
      | ⟨1, _⟩ => exact Cert.LibPlainMatmul.rhs_col _ _)
  rw [el, er]

end Cert.LibPlainDot

end
-- ==== Proof.Layer.lean ====
/-
  One graph-convolution layer's dense stage, entry by entry on the extended reals: the node's own feature row times
  the self weights, plus the averaged-neighbour row times the neighbour weights, plus the bias, clamped below at zero,

      layer h hn Ws Wn b (r, j) = max (Σₖ h(r,k)·Ws(k,j) + Σₖ hn(r,k)·Wn(k,j) + b(j)) 0 .

  Two programs compute it. The matrix unit's form multiplies into a zero accumulator (operands narrowed to bf16 first,
  which on the extended reals changes nothing), adds the bias laid as one row and repeated down the rows, and takes the
  maximum with a zero splat. The host's form uses two plain matrix products, a bias vector broadcast through a
  one-row array, and the maximum with a broadcast zero scalar. Both read, at an entry, the same two sums over the
  256 contraction positions, added in the same order: no law beyond reading each operation at an index is needed, and
  nothing here asks the entries to be finite.
-/
import Idealize.ShloMosaic.Lib.ValueIdx
import Idealize.ShloMosaic.Lib.ValueLayout
import Idealize.ShloMosaic.Lib.Pipeline.Value
import Idealize.ShloMosaic.PureOps.Ideal.Laws
import proofs.«115937_j10204842295688_1_alg».proof.Proof.LibPlainMatmul
import proofs.«115937_j10204842295688_1_alg».proof.Proof.LibPlainDot

noncomputable section

open scoped BigOperators

namespace Cert.Sage

open Idealize.ShloMosaic Idealize.ShloMosaic.ValueIdx

variable {n : ℕ}

/-- The dense stage of one layer at entry `i = (r, j)`: `max (Σₖ h(r,k)·Ws(k,j) + Σₖ hn(r,k)·Wn(k,j) + b(j)) 0`. -/
def layer (h hn : FVec Ideal ⟨2, ![n, 256]⟩ .f32) (Ws Wn : FVec Ideal ⟨2, ![256, 256]⟩ .f32)
    (b : FVec Ideal ⟨1, ![256]⟩ .f32) : FVec Ideal ⟨2, ![n, 256]⟩ .f32 :=
  fun i => max ((∑ k : Fin 256, h (ix2 (i 0) k) * Ws (ix2 k (i 1))) + (∑ k : Fin 256, hn (ix2 (i 0) k) * Wn (ix2 k (i 1)))
    + b (ix1 (i 1))) (Ideal.ofBits .f32 0x00000000#32)

/-- The matrix unit's form of the dense stage is `layer`: two products into the zero accumulator of the operands
    narrowed to bf16, the bias as a row repeated down the rows, the maximum with the zero splat. -/
theorem layer_of_matmul (x0 x1 : FVec Ideal ⟨2, ![n, 256]⟩ .f32) (x2 x3 : FVec Ideal ⟨2, ![256, 256]⟩ .f32)
    (x4 : FVec Ideal ⟨1, ![256]⟩ .f32) (hbits : FTy.bits .bf16 < FTy.bits .f32)
    (hc : (⟨1, ![256]⟩ : Shape).ShapeCasts ⟨2, ![1, 256]⟩) (hb : (⟨2, ![1, 256]⟩ : Shape).Broadcasts ⟨2, ![n, 256]⟩) :
    maximumf (addf (addf
        (matmul (DotDims.plain n 256 256) none (truncf .bf16 x0 hbits) (truncf .bf16 x2 hbits)
          (constant (F := Ideal) ⟨2, ![n, 256]⟩ .f32 0x00000000#32))
        (matmul (DotDims.plain n 256 256) none (truncf .bf16 x1 hbits) (truncf .bf16 x3 hbits)
          (constant (F := Ideal) ⟨2, ![n, 256]⟩ .f32 0x00000000#32)))
        (broadcastTo ⟨2, ![n, 256]⟩ (shapeCast ⟨2, ![1, 256]⟩ x4 hc) hb))
      (broadcast ⟨2, ![n, 256]⟩ (Scalar.ofBits (F := Ideal) .f32 0x00000000#32))
    = layer x0 x1 x2 x3 x4 := by
  funext i
  obtain ⟨r, j, rfl⟩ : ∃ (r : Fin n) (j : Fin 256), i = ix2 r j := ⟨i 0, i 1, eq_ix2 i⟩
  have e0 := Cert.LibPlainMatmul.matmul_zero_apply (a := n) (n := 256) (b := 256) none
    (truncf .bf16 x0 hbits) (truncf .bf16 x2 hbits) r j
  have e1 := Cert.LibPlainMatmul.matmul_zero_apply (a := n) (n := 256) (b := 256) none
    (truncf .bf16 x1 hbits) (truncf .bf16 x3 hbits) r j
  have e2 : broadcastTo ⟨2, ![n, 256]⟩ (shapeCast ⟨2, ![1, 256]⟩ x4 hc) hb (ix2 r j) = x4 (ix1 j) :=
    (broadcastTo_1b_ab_apply _ hb r j).trans (shapeCast_a_1a_apply x4 hc (0 : Fin 1) j)
  show max ((FloatOps.matmul (DotDims.plain n 256 256) none (truncf .bf16 x0 hbits) (truncf .bf16 x2 hbits)
        (constant (F := Ideal) ⟨2, ![n, 256]⟩ .f32 0x00000000#32) (ix2 r j)
      + FloatOps.matmul (DotDims.plain n 256 256) none (truncf .bf16 x1 hbits) (truncf .bf16 x3 hbits)
        (constant (F := Ideal) ⟨2, ![n, 256]⟩ .f32 0x00000000#32) (ix2 r j))
      + broadcastTo ⟨2, ![n, 256]⟩ (shapeCast ⟨2, ![1, 256]⟩ x4 hc) hb (ix2 r j)) (Ideal.ofBits .f32 0x00000000#32) = _
  rw [e0, e1, e2]
  rfl

/-- The host's form of the dense stage is `layer`: two plain matrix products, the bias vector broadcast through a
    one-row array, the maximum with a broadcast zero scalar. -/
theorem layer_of_dot (h hn : FVec Ideal ⟨2, ![n, 256]⟩ .f32) (Ws Wn : FVec Ideal ⟨2, ![256, 256]⟩ .f32)
    (b : FVec Ideal ⟨1, ![256]⟩ .f32)
    (hb1 : (⟨1, ![256]⟩ : Shape).BroadcastsInDim ⟨2, ![1, 256]⟩ ![1])
    (hb2 : (⟨2, ![1, 256]⟩ : Shape).BroadcastsInDim ⟨2, ![n, 256]⟩ ![0, 1])
    (hb0 : (⟨0, ![]⟩ : Shape).BroadcastsInDim ⟨2, ![n, 256]⟩ ![]) (hn1 : n ≠ 1) :
    maximumf (addf (addf
        (Host.dotGeneral (DotDims.plain n 256 256) none h Ws)
        (Host.dotGeneral (DotDims.plain n 256 256) none hn Wn))
        (broadcastInDim ⟨2, ![n, 256]⟩ ![0, 1] hb2 (broadcastInDim ⟨2, ![1, 256]⟩ ![1] hb1 b)))
      (broadcastInDim ⟨2, ![n, 256]⟩ ![] hb0 (constant (F := Ideal) ⟨0, ![]⟩ .f32 0x00000000#32))
    = layer h hn Ws Wn b := by
  funext i
  obtain ⟨r, j, rfl⟩ : ∃ (r : Fin n) (j : Fin 256), i = ix2 r j := ⟨i 0, i 1, eq_ix2 i⟩
  have e0 := Cert.LibPlainDot.dotGeneral_apply (a := n) (n := 256) (b := 256) none h Ws r j
  have e1 := Cert.LibPlainDot.dotGeneral_apply (a := n) (n := 256) (b := 256) none hn Wn r j
  have e2 : broadcastInDim ⟨2, ![n, 256]⟩ ![0, 1] hb2 (broadcastInDim ⟨2, ![1, 256]⟩ ![1] hb1 b) (ix2 r j) = b (ix1 j) := by
    refine (broadcastInDim_apply _ hb2 _ (ix2 r j) (ix2 (0 : Fin 1) j) (fun a => ?_)).trans
      (broadcastInDim_apply _ hb1 b (ix2 (0 : Fin 1) j) (ix1 j) (fun a => ?_))
    · match a with
      | ⟨0, _⟩ => show (0 : Nat) = if (1 : Nat) = 1 then 0 else r.val; rw [if_pos rfl]
      | ⟨1, _⟩ => show j.val = if (256 : Nat) = 1 then 0 else j.val; rw [if_neg (by decide)]
    · match a with
      | ⟨0, _⟩ => show j.val = if (256 : Nat) = 1 then 0 else j.val; rw [if_neg (by decide)]
  show max ((Host.dotGeneral (DotDims.plain n 256 256) none h Ws (ix2 r j)
      + Host.dotGeneral (DotDims.plain n 256 256) none hn Wn (ix2 r j))
      + broadcastInDim ⟨2, ![n, 256]⟩ ![0, 1] hb2 (broadcastInDim ⟨2, ![1, 256]⟩ ![1] hb1 b) (ix2 r j))
      (Ideal.ofBits .f32 0x00000000#32) = _
  rw [e0, e1, e2]
  rfl

end Cert.Sage

end
-- ==== Proof.Body.lean ====
/-
  What one grid point's body leaves in the output block: the dense stage of the layer on the point's 2000 rows. Both
  launches run the same arithmetic — two products into a zero accumulator of operands narrowed to bf16, the sum of
  the two, the bias row added, the maximum with zero — so each stored block is `layer` of the five loaded blocks
  (the second launch's body differs only by an identity re-lay of its first operand).
-/
import proofs.«115937_j10204842295688_1_alg».proof.Proof.Gen.KernelIdeal.Frame
import proofs.«115937_j10204842295688_1_alg».proof.Proof.Layer

noncomputable section

namespace Cert.KernelIdeal.DenseBody

open Cert.KernelIdeal Cert.KernelIdeal.Gen Idealize.ShloMosaic Idealize.ShloMosaic.ValueIdx Cert.Sage

theorem zero2 : (![0, 0] : Fin 2 → Nat) = fun _ => 0 := funext fun a => by fin_cases a <;> rfl
theorem zero1 : (![0] : Fin 1 → Nat) = fun _ => 0 := funext fun a => by fin_cases a <;> rfl

/-- The first launch's stored value is the dense stage of its loaded blocks. -/
theorem pay0_eq (x0 x1 : Vec Ideal S2000x256 .f32) (x2 x3 : Vec Ideal S256x256 .f32) (x4 : Vec Ideal S256 .f32) :
    k0_pay1 (F := Ideal) x0 x1 x2 x3 x4 = layer x0 x1 x2 x3 x4 := by
  unfold k0_pay1
  simp only [shapeCast_self]
  exact layer_of_matmul x0 x1 x2 x3 x4 _ _ _

/-- The second launch's stored value is the dense stage of its loaded blocks. -/
theorem pay1_eq (x0 x1 : Vec Ideal S2000x256 .f32) (x2 x3 : Vec Ideal S256x256 .f32) (x4 : Vec Ideal S256 .f32) :
    k1_pay1 (F := Ideal) x0 x1 x2 x3 x4 = layer x0 x1 x2 x3 x4 := by
  unfold k1_pay1
  simp only [shapeCast_self]
  exact layer_of_matmul x0 x1 x2 x3 x4 _ _ _

/-- The first launch's output block after the body: one store of the whole block. -/
theorem out0_eq (x0 x1 : Vec Ideal S2000x256 .f32) (x2 x3 : Vec Ideal S256x256 .f32) (x4 : Vec Ideal S256 .f32) :
    out0_5 (F := Ideal) x0 x1 x2 x3 x4 = layer x0 x1 x2 x3 x4 := by
  unfold out0_5
  rw [View.canon_unit_zero zero2]
  simp only [View.ld_unit_zero (S := S2000x256) zero2, View.ld_unit_zero (S := S256x256) zero2,
    View.ld_unit_zero (S := S256) zero1]
  exact pay0_eq x0 x1 x2 x3 x4

/-- The second launch's output block after the body. -/
theorem out1_eq (x0 x1 : Vec Ideal S2000x256 .f32) (x2 x3 : Vec Ideal S256x256 .f32) (x4 : Vec Ideal S256 .f32) :
    out1_5 (F := Ideal) x0 x1 x2 x3 x4 = layer x0 x1 x2 x3 x4 := by
  unfold out1_5
  rw [View.canon_unit_zero zero2]
  simp only [View.ld_unit_zero (S := S2000x256) zero2, View.ld_unit_zero (S := S256x256) zero2,
    View.ld_unit_zero (S := S256) zero1]
  exact pay1_eq x0 x1 x2 x3 x4

/-- A block's dense stage at a block entry is the array's dense stage at the array entry, when the block's two row
    operands hold the arrays' row of that entry, the weights and the bias are the whole arrays, and the column is
    the same. -/
theorem layer_rows {a n : ℕ} (A An : FVec Ideal ⟨2, ![n, 256]⟩ .f32) (Ws Wn : FVec Ideal ⟨2, ![256, 256]⟩ .f32)
    (b : FVec Ideal ⟨1, ![256]⟩ .f32) (x0 x1 : FVec Ideal ⟨2, ![a, 256]⟩ .f32) (x2 x3 : FVec Ideal ⟨2, ![256, 256]⟩ .f32)
    (x4 : FVec Ideal ⟨1, ![256]⟩ .f32) (p : Fin a) (r : Fin n) (q : Fin 256)
    (h0 : ∀ k : Fin 256, x0 (ix2 p k) = A (ix2 r k)) (h1 : ∀ k : Fin 256, x1 (ix2 p k) = An (ix2 r k))
    (h2 : x2 = Ws) (h3 : x3 = Wn) (h4 : x4 = b) :
    layer x0 x1 x2 x3 x4 (ix2 p q) = layer A An Ws Wn b (ix2 r q) := by
  subst h2 h3 h4
  show max ((∑ k : Fin 256, x0 (ix2 p k) * x2 (ix2 k q)) + (∑ k : Fin 256, x1 (ix2 p k) * x3 (ix2 k q)) + x4 (ix1 q)) _
    = max ((∑ k : Fin 256, A (ix2 r k) * x2 (ix2 k q)) + (∑ k : Fin 256, An (ix2 r k) * x3 (ix2 k q)) + x4 (ix1 q)) _
  simp only [h0, h1]

end Cert.KernelIdeal.DenseBody

end
-- ==== Proof.Region0.lean ====
/-
  The first launch's output array, from blocks to the whole. The launch walks 25 points; at point `t` it fetches rows
  `2000·t … 2000·t + 1999` of the node features and of the averaged neighbour features, keeps the two weight matrices and
  the bias resident, and writes back the same rows of the output. Each written block is the dense stage of the layer on
  its rows (the body), a row of the dense stage depends only on the same row of the two feature arrays, and the 25
  blocks tile the 50000 rows — so the array ends at the dense stage of the whole arrays, whatever they hold when the
  launch is entered.
-/
import proofs.«115937_j10204842295688_1_alg».proof.Proof.Gen.KernelIdeal.Frame
import proofs.«115937_j10204842295688_1_alg».proof.Proof.Body
import Idealize.ShloMosaic.Lib.Pipeline.Value

set_option maxRecDepth 16384

noncomputable section

namespace Cert.KernelIdeal.Region0

open Cert.KernelIdeal Cert.KernelIdeal.Gen Cert.KernelIdeal.DenseBody Idealize.ShloMosaic Idealize.ShloMosaic.TcCoe
  Idealize.ShloMosaic.ValueIdx Cert.Sage Idealize.SL.Sem
open Idealize.ShloMosaic.Pipeline (Dat)

variable (V : (c : Dev nD) → (b : Ref sig .tc) → Buf (Elt Ideal) ((c : Thread nD τ).loc b))

/-- The launch's index maps over its 25 points: the two row operands and the output move one block of 2000 rows per
    point; the weights and the bias stay at their one block. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0
    ∧ win0_5.index t (0 : Fin 2) = t.val ∧ win0_5.index t (1 : Fin 2) = 0 :=
  (by decide +kernel : ∀ t : Fin grid0.N, _)

/-- What point `t` writes back is rows `2000·t … 2000·t + 1999` of the dense stage of the arrays the launch finds:
    the row operands' blocks at `t` hold exactly those rows, the weights' and the bias's blocks are the whole arrays. -/
theorem flushed_eq (c : Dev nD) (t : Fin cfg0.N) :
    (dat0 V c).flushed 5 t = ((cfg0.win 5).blk t).view.read (Elt Ideal)
      (layer (n := 50000) (V c main_arg0) (V c main_v23) (V c main_arg3) (V c main_arg4) (V c main_arg5)) := by
  show (cfg0.win 5).cut (grid0.coords t) ((dat0 V c).after 5 t) = _
  rw [after0_5, out0_eq]
  obtain ⟨e00, e01, e10, e11, e20, e21, e30, e31, e4, e50, e51⟩ := idx_facts t
  funext y
  have hp : (y 0).val < 2000 := (y 0).isLt
  have hq : (y 1).val < 256 := (y 1).isLt
  have hN : t.val < 25 := lt_of_lt_of_eq t.isLt N_0
  have hy : y = ix2 (⟨(y 0).val, hp⟩ : Fin 2000) (⟨(y 1).val, hq⟩ : Fin 256) :=
    funext fun a => Fin.ext (by match a with | ⟨0, _⟩ => rfl | ⟨1, _⟩ => rfl)
  have hemb : ((cfg0.win 5).blk t).view.emb y
      = ix2 (⟨2000 * t.val + (y 0).val, by omega⟩ : Fin 50000) (⟨(y 1).val, hq⟩ : Fin 256) :=
    funext fun a => Fin.ext (by
      match a with
      | ⟨0, _⟩ => show win0_5.index t (0 : Fin 2) * 2000 + 1 * (y 0).val = 2000 * t.val + (y 0).val; rw [e50]; omega
      | ⟨1, _⟩ => show win0_5.index t (1 : Fin 2) * 256 + 1 * (y 1).val = (y 1).val; rw [e51]; omega)
  have h0 : ∀ k : Fin 256, iblk0 V c 0 t (ix2 (⟨(y 0).val, hp⟩ : Fin 2000) k)
      = V c main_arg0 (ix2 (⟨2000 * t.val + (y 0).val, by omega⟩ : Fin 50000) k) := fun k => by
    show V c main_arg0 (((cfg0.win 0).blk t).view.emb (ix2 (⟨(y 0).val, hp⟩ : Fin 2000) k)) = _
    refine congrArg (V c main_arg0) (funext fun a => Fin.ext ?_)
    match a with
    | ⟨0, _⟩ => show win0_0.index t (0 : Fin 2) * 2000 + 1 * (y 0).val = 2000 * t.val + (y 0).val; rw [e00]; omega
    | ⟨1, _⟩ => show win0_0.index t (1 : Fin 2) * 256 + 1 * k.val = k.val; rw [e01]; omega
  have h1 : ∀ k : Fin 256, iblk0 V c 1 t (ix2 (⟨(y 0).val, hp⟩ : Fin 2000) k)
      = V c main_v23 (ix2 (⟨2000 * t.val + (y 0).val, by omega⟩ : Fin 50000) k) := fun k => by
    show V c main_v23 (((cfg0.win 1).blk t).view.emb (ix2 (⟨(y 0).val, hp⟩ : Fin 2000) k)) = _
    refine congrArg (V c main_v23) (funext fun a => Fin.ext ?_)
    match a with
    | ⟨0, _⟩ => show win0_1.index t (0 : Fin 2) * 2000 + 1 * (y 0).val = 2000 * t.val + (y 0).val; rw [e10]; omega
    | ⟨1, _⟩ => show win0_1.index t (1 : Fin 2) * 256 + 1 * k.val = k.val; rw [e11]; omega
  have h2 : iblk0 V c 2 t = V c main_arg3 := funext fun z => by
    show V c main_arg3 (((cfg0.win 2).blk t).view.emb z) = V c main_arg3 z
    refine congrArg (V c main_arg3) (funext fun a => Fin.ext ?_)
    match a with
    | ⟨0, _⟩ => show win0_2.index t (0 : Fin 2) * 256 + 1 * (z 0).val = (z 0).val; rw [e20]; omega
    | ⟨1, _⟩ => show win0_2.index t (1 : Fin 2) * 256 + 1 * (z 1).val = (z 1).val; rw [e21]; omega
  have h3 : iblk0 V c 3 t = V c main_arg4 := funext fun z => by
    show V c main_arg4 (((cfg0.win 3).blk t).view.emb z) = V c main_arg4 z
    refine congrArg (V c main_arg4) (funext fun a => Fin.ext ?_)
    match a with
    | ⟨0, _⟩ => show win0_3.index t (0 : Fin 2) * 256 + 1 * (z 0).val = (z 0).val; rw [e30]; omega
    | ⟨1, _⟩ => show win0_3.index t (1 : Fin 2) * 256 + 1 * (z 1).val = (z 1).val; rw [e31]; omega
  have h4 : iblk0 V c 4 t = V c main_arg5 := funext fun z => by
    show V c main_arg5 (((cfg0.win 4).blk t).view.emb z) = V c main_arg5 z
    refine congrArg (V c main_arg5) (funext fun a => Fin.ext ?_)
    match a with
    | ⟨0, _⟩ => show win0_4.index t (0 : Fin 1) * 256 + 1 * (z 0).val = (z 0).val; rw [e4]; omega
  show layer (iblk0 V c 0 t) (iblk0 V c 1 t) (iblk0 V c 2 t) (iblk0 V c 3 t) (iblk0 V c 4 t) y
    = layer (n := 50000) (V c main_arg0) (V c main_v23) (V c main_arg3) (V c main_arg4) (V c main_arg5)
        (((cfg0.win 5).blk t).view.emb y)
  rw [hemb]
  refine (congrArg (layer (iblk0 V c 0 t) (iblk0 V c 1 t) (iblk0 V c 2 t) (iblk0 V c 3 t) (iblk0 V c 4 t)) hy).trans ?_
  exact layer_rows (a := 2000) (n := 50000) (V c main_arg0) (V c main_v23) (V c main_arg3) (V c main_arg4) (V c main_arg5)
    (iblk0 V c 0 t) (iblk0 V c 1 t) (iblk0 V c 2 t) (iblk0 V c 3 t) (iblk0 V c 4 t) _ _ _ h0 h1 h2 h3 h4

/-- An entry of the output array lies in point `t`'s block iff each coordinate lies in the block's range. -/
theorem mem_blk (t : Fin cfg0.N) (i : S50000x256.Idx) :
    i ∈ ((cfg0.win 5).blk t).view.set ↔ ∀ a : Fin 2, win0_5.index t a * S2000x256.size a ≤ (i a).val
      ∧ (i a).val < win0_5.index t a * S2000x256.size a + S2000x256.size a := by
  show i ∈ ((View.whole main_v24).slice (win0_5.rect t)).set ↔ _
  rw [View.set_slice_whole, Rect.mem_set_unit]
  exact Iff.rfl

/-- The 25 blocks of 2000 rows cover the 50000 rows: row `r` lies in block `r / 2000`. -/
theorem covered (i : S50000x256.Idx) :
    ∃ t : Fin cfg0.N, (cfg0.win 5).flush t = true ∧ i ∈ ((cfg0.win 5).blk t).view.set := by
  have hi0 : (i 0).val < 50000 := (i 0).isLt
  have hi1 : (i 1).val < 256 := (i 1).isLt
  have hN : cfg0.N = 25 := N_0
  refine ⟨⟨(i 0).val / 2000, by rw [hN]; omega⟩, flush0_5 _, ?_⟩
  rw [mem_blk]
  obtain ⟨-, -, -, -, -, -, -, -, -, e50, e51⟩ := idx_facts (⟨(i 0).val / 2000, by rw [hN]; omega⟩ : Fin cfg0.N)
  intro a
  match a with
  | ⟨0, _⟩ =>
    show win0_5.index _ (0 : Fin 2) * 2000 ≤ (i 0).val ∧ (i 0).val < win0_5.index _ (0 : Fin 2) * 2000 + 2000
    rw [e50]; show (i 0).val / 2000 * 2000 ≤ (i 0).val ∧ (i 0).val < (i 0).val / 2000 * 2000 + 2000; omega
  | ⟨1, _⟩ =>
    show win0_5.index _ (1 : Fin 2) * 256 ≤ (i 1).val ∧ (i 1).val < win0_5.index _ (1 : Fin 2) * 256 + 256
    rw [e51]; omega

/-- The output array once every point has written back: the dense stage of the arrays the launch finds. -/
theorem final (c : Dev nD) : (dat0 V c).arrAt 5 cfg0.N
    = layer (n := 50000) (V c main_arg0) (V c main_v23) (V c main_arg3) (V c main_arg4) (V c main_arg5) :=
  (dat0 V c).arrAt_eq_of_cover 5 _ (fun t _ => flushed_eq V c t) covered

end Cert.KernelIdeal.Region0

end
-- ==== Proof.Region1.lean ====
/-
  The second launch's output array, from blocks to the whole. As in the first launch, point `t` of 25 fetches rows
  `2000·t … 2000·t + 1999` of the first layer's output and of its averaged neighbour rows, keeps the second layer's
  weight matrices and bias resident, and writes back the same rows of the result. Each written block is the dense stage
  on its rows, a row of the dense stage depends only on that row of the two feature arrays, and the 25 blocks tile the
  50000 rows — so the array ends at the dense stage of the whole arrays the launch finds.
-/
import proofs.«115937_j10204842295688_1_alg».proof.Proof.Gen.KernelIdeal.Frame
import proofs.«115937_j10204842295688_1_alg».proof.Proof.Body
import Idealize.ShloMosaic.Lib.Pipeline.Value

set_option maxRecDepth 16384

noncomputable section

namespace Cert.KernelIdeal.Region1

open Cert.KernelIdeal Cert.KernelIdeal.Gen Cert.KernelIdeal.DenseBody Idealize.ShloMosaic Idealize.ShloMosaic.TcCoe
  Idealize.ShloMosaic.ValueIdx Cert.Sage Idealize.SL.Sem
open Idealize.ShloMosaic.Pipeline (Dat)

variable (V : (c : Dev nD) → (b : Ref sig .tc) → Buf (Elt Ideal) ((c : Thread nD τ).loc b))

/-- The launch's index maps over its 25 points: the two row operands and the output move one block of 2000 rows per
    point; the weights and the bias stay at their one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 1) = 0
    ∧ win1_5.index t (0 : Fin 2) = t.val ∧ win1_5.index t (1 : Fin 2) = 0 :=
  (by decide +kernel : ∀ t : Fin grid1.N, _)

/-- What point `t` writes back is rows `2000·t … 2000·t + 1999` of the dense stage of the arrays the launch finds:
    the row operands' blocks at `t` hold exactly those rows, the weights' and the bias's blocks are the whole arrays. -/
theorem flushed_eq (c : Dev nD) (t : Fin cfg1.N) :
    (dat1 V c).flushed 5 t = ((cfg1.win 5).blk t).view.read (Elt Ideal)
      (layer (n := 50000) (V c main_v24) (V c main_v37) (V c main_arg6) (V c main_arg7) (V c main_arg8)) := by
  show (cfg1.win 5).cut (grid1.coords t) ((dat1 V c).after 5 t) = _
  rw [after1_5, out1_eq]
  obtain ⟨e00, e01, e10, e11, e20, e21, e30, e31, e4, e50, e51⟩ := idx_facts t
  funext y
  have hp : (y 0).val < 2000 := (y 0).isLt
  have hq : (y 1).val < 256 := (y 1).isLt
  have hN : t.val < 25 := lt_of_lt_of_eq t.isLt N_1
  have hy : y = ix2 (⟨(y 0).val, hp⟩ : Fin 2000) (⟨(y 1).val, hq⟩ : Fin 256) :=
    funext fun a => Fin.ext (by match a with | ⟨0, _⟩ => rfl | ⟨1, _⟩ => rfl)
  have hemb : ((cfg1.win 5).blk t).view.emb y
      = ix2 (⟨2000 * t.val + (y 0).val, by omega⟩ : Fin 50000) (⟨(y 1).val, hq⟩ : Fin 256) :=
    funext fun a => Fin.ext (by
      match a with
      | ⟨0, _⟩ => show win1_5.index t (0 : Fin 2) * 2000 + 1 * (y 0).val = 2000 * t.val + (y 0).val; rw [e50]; omega
      | ⟨1, _⟩ => show win1_5.index t (1 : Fin 2) * 256 + 1 * (y 1).val = (y 1).val; rw [e51]; omega)
  have h0 : ∀ k : Fin 256, iblk1 V c 0 t (ix2 (⟨(y 0).val, hp⟩ : Fin 2000) k)
      = V c main_v24 (ix2 (⟨2000 * t.val + (y 0).val, by omega⟩ : Fin 50000) k) := fun k => by
    show V c main_v24 (((cfg1.win 0).blk t).view.emb (ix2 (⟨(y 0).val, hp⟩ : Fin 2000) k)) = _
    refine congrArg (V c main_v24) (funext fun a => Fin.ext ?_)
    match a with
    | ⟨0, _⟩ => show win1_0.index t (0 : Fin 2) * 2000 + 1 * (y 0).val = 2000 * t.val + (y 0).val; rw [e00]; omega
    | ⟨1, _⟩ => show win1_0.index t (1 : Fin 2) * 256 + 1 * k.val = k.val; rw [e01]; omega
  have h1 : ∀ k : Fin 256, iblk1 V c 1 t (ix2 (⟨(y 0).val, hp⟩ : Fin 2000) k)
      = V c main_v37 (ix2 (⟨2000 * t.val + (y 0).val, by omega⟩ : Fin 50000) k) := fun k => by
    show V c main_v37 (((cfg1.win 1).blk t).view.emb (ix2 (⟨(y 0).val, hp⟩ : Fin 2000) k)) = _
    refine congrArg (V c main_v37) (funext fun a => Fin.ext ?_)
    match a with
    | ⟨0, _⟩ => show win1_1.index t (0 : Fin 2) * 2000 + 1 * (y 0).val = 2000 * t.val + (y 0).val; rw [e10]; omega
    | ⟨1, _⟩ => show win1_1.index t (1 : Fin 2) * 256 + 1 * k.val = k.val; rw [e11]; omega
  have h2 : iblk1 V c 2 t = V c main_arg6 := funext fun z => by
    show V c main_arg6 (((cfg1.win 2).blk t).view.emb z) = V c main_arg6 z
    refine congrArg (V c main_arg6) (funext fun a => Fin.ext ?_)
    match a with
    | ⟨0, _⟩ => show win1_2.index t (0 : Fin 2) * 256 + 1 * (z 0).val = (z 0).val; rw [e20]; omega
    | ⟨1, _⟩ => show win1_2.index t (1 : Fin 2) * 256 + 1 * (z 1).val = (z 1).val; rw [e21]; omega
  have h3 : iblk1 V c 3 t = V c main_arg7 := funext fun z => by
    show V c main_arg7 (((cfg1.win 3).blk t).view.emb z) = V c main_arg7 z
    refine congrArg (V c main_arg7) (funext fun a => Fin.ext ?_)
    match a with
    | ⟨0, _⟩ => show win1_3.index t (0 : Fin 2) * 256 + 1 * (z 0).val = (z 0).val; rw [e30]; omega
    | ⟨1, _⟩ => show win1_3.index t (1 : Fin 2) * 256 + 1 * (z 1).val = (z 1).val; rw [e31]; omega
  have h4 : iblk1 V c 4 t = V c main_arg8 := funext fun z => by
    show V c main_arg8 (((cfg1.win 4).blk t).view.emb z) = V c main_arg8 z
    refine congrArg (V c main_arg8) (funext fun a => Fin.ext ?_)
    match a with
    | ⟨0, _⟩ => show win1_4.index t (0 : Fin 1) * 256 + 1 * (z 0).val = (z 0).val; rw [e4]; omega
  show layer (iblk1 V c 0 t) (iblk1 V c 1 t) (iblk1 V c 2 t) (iblk1 V c 3 t) (iblk1 V c 4 t) y
    = layer (n := 50000) (V c main_v24) (V c main_v37) (V c main_arg6) (V c main_arg7) (V c main_arg8)
        (((cfg1.win 5).blk t).view.emb y)
  rw [hemb]
  refine (congrArg (layer (iblk1 V c 0 t) (iblk1 V c 1 t) (iblk1 V c 2 t) (iblk1 V c 3 t) (iblk1 V c 4 t)) hy).trans ?_
  exact layer_rows (a := 2000) (n := 50000) (V c main_v24) (V c main_v37) (V c main_arg6) (V c main_arg7) (V c main_arg8)
    (iblk1 V c 0 t) (iblk1 V c 1 t) (iblk1 V c 2 t) (iblk1 V c 3 t) (iblk1 V c 4 t) _ _ _ h0 h1 h2 h3 h4

/-- An entry of the output array lies in point `t`'s block iff each coordinate lies in the block's range. -/
theorem mem_blk (t : Fin cfg1.N) (i : S50000x256.Idx) :
    i ∈ ((cfg1.win 5).blk t).view.set ↔ ∀ a : Fin 2, win1_5.index t a * S2000x256.size a ≤ (i a).val
      ∧ (i a).val < win1_5.index t a * S2000x256.size a + S2000x256.size a := by
  show i ∈ ((View.whole main_v38).slice (win1_5.rect t)).set ↔ _
  rw [View.set_slice_whole, Rect.mem_set_unit]
  exact Iff.rfl

/-- The 25 blocks of 2000 rows cover the 50000 rows: row `r` lies in block `r / 2000`. -/
theorem covered (i : S50000x256.Idx) :
    ∃ t : Fin cfg1.N, (cfg1.win 5).flush t = true ∧ i ∈ ((cfg1.win 5).blk t).view.set := by
  have hi0 : (i 0).val < 50000 := (i 0).isLt
  have hi1 : (i 1).val < 256 := (i 1).isLt
  have hN : cfg1.N = 25 := N_1
  refine ⟨⟨(i 0).val / 2000, by rw [hN]; omega⟩, flush1_5 _, ?_⟩
  rw [mem_blk]
  obtain ⟨-, -, -, -, -, -, -, -, -, e50, e51⟩ := idx_facts (⟨(i 0).val / 2000, by rw [hN]; omega⟩ : Fin cfg1.N)
  intro a
  match a with
  | ⟨0, _⟩ =>
    show win1_5.index _ (0 : Fin 2) * 2000 ≤ (i 0).val ∧ (i 0).val < win1_5.index _ (0 : Fin 2) * 2000 + 2000
    rw [e50]; show (i 0).val / 2000 * 2000 ≤ (i 0).val ∧ (i 0).val < (i 0).val / 2000 * 2000 + 2000; omega
  | ⟨1, _⟩ =>
    show win1_5.index _ (1 : Fin 2) * 256 ≤ (i 1).val ∧ (i 1).val < win1_5.index _ (1 : Fin 2) * 256 + 256
    rw [e51]; omega

/-- The output array once every point has written back: the dense stage of the arrays the launch finds. -/
theorem final (c : Dev nD) : (dat1 V c).arrAt 5 cfg1.N
    = layer (n := 50000) (V c main_v24) (V c main_v37) (V c main_arg6) (V c main_arg7) (V c main_arg8) :=
  (dat1 V c).arrAt_eq_of_cover 5 _ (fun t _ => flushed_eq V c t) covered

end Cert.KernelIdeal.Region1

end
-- ==== Proof.Neigh.lean ====
/-
  The host side shared by the two programs, as functions of the arrays. `degree dst` counts the edges into each node
  (ones scattered and added at the destination indices); `invDeg dst` is `1 / max(degree, 1)` where the degree is
  positive and `0` elsewhere; `neigh h src dst` gathers the feature row of each edge's source (a negative index
  wrapped by the number of nodes first), adds the gathered rows at the edges' destinations, and scales each node's row
  by its inverse degree: the mean of the in-neighbours' rows. `dense` is one layer's dense stage in the host's
  operations, and `sage` the two layers composed. Neither program's proof opens the gather or the scatter: both
  apply these same functions, and only what they are applied to has to agree.
-/
import proofs.«115937_j10204842295688_1_alg».proof.Proof.Gen.ReferenceIdeal
import proofs.«115937_j10204842295688_1_alg».proof.Proof.Layer

noncomputable section

namespace Cert.Sage

open Cert.ReferenceIdeal Cert.ReferenceIdeal.Gen Idealize.ShloMosaic Idealize.ShloMosaic.ValueIdx

/-- The in-degree of each node: a one added at every edge's destination. -/
def degree (dst : IVec S800000 32) : FVec Ideal S50000 .f32 :=
  Host.scatterAdd scatter_S50000_S800000x1_S800000_n_0_0_1
    (broadcastInDim S50000 ![] bcast_S_S50000 (constant S_ .f32 0x00000000#32))
    (broadcastInDim S800000x1 ![0] bcast_S800000_S800000x1_0 dst)
    (broadcastInDim S800000 ![] bcast_S_S800000 (constant S_ .f32 0x3F800000#32))

/-- `1 / max(degree, 1)` at a node of positive degree, `0` at the others. -/
def invDeg (dst : IVec S800000 32) : FVec Ideal S50000 .f32 :=
  select (cmpf (F := Ideal) .ogt (degree dst) (broadcastInDim S50000 ![] bcast_S_S50000 (constant S_ .f32 0x00000000#32)))
    (Host.divf (broadcastInDim S50000 ![] bcast_S_S50000 (constant S_ .f32 0x3F800000#32))
      (maximumf (degree dst) (broadcastInDim S50000 ![] bcast_S_S50000 (constant S_ .f32 0x3F800000#32))))
    (broadcastInDim S50000 ![] bcast_S_S50000 (id (constant S_ .f32 0x00000000#32)))

/-- The mean of each node's in-neighbours' feature rows, given the inverse degrees `w`. -/
def neighWith (w : FVec Ideal S50000 .f32) (h : FVec Ideal S50000x256 .f32) (src dst : IVec S800000 32) :
    FVec Ideal S50000x256 .f32 :=
  mulf
    (Host.scatterAdd scatter_S50000x256_S800000x1_S800000x256_1_0_0_1
      (broadcastInDim S50000x256 ![] bcast_S_S50000x256 (constant S_ .f32 0x00000000#32))
      (broadcastInDim S800000x1 ![0] bcast_S800000_S800000x1_0 dst)
      (Host.gather gather_S50000x256_S800000x1_S800000x256_1_0_n_n_0_1_1256 h
        (broadcastInDim S800000x1 ![0] bcast_S800000_S800000x1_0
          (select (cmpi .slt src (broadcastInDim S800000 ![] bcast_S_S800000 (constantI S_ 32 0#32)))
            (addi src (broadcastInDim S800000 ![] bcast_S_S800000 (constantI S_ 32 50000#32))) src))))
    (broadcastInDim S50000x256 ![0, 1] bcast_S50000x1_S50000x256_0_1
      (broadcastInDim S50000x1 ![0] bcast_S50000_S50000x1_0 w))

/-- The mean of each node's in-neighbours' feature rows. -/
def neigh (h : FVec Ideal S50000x256 .f32) (src dst : IVec S800000 32) : FVec Ideal S50000x256 .f32 :=
  neighWith (invDeg dst) h src dst

/-- One layer's dense stage in the host's operations. -/
def dense (h hn : FVec Ideal S50000x256 .f32) (Ws Wn : FVec Ideal S256x256 .f32) (b : FVec Ideal S256 .f32) :
    FVec Ideal S50000x256 .f32 :=
  maximumf (addf (addf
      (Host.dotGeneral dot_S50000x256_S256x256_S50000x256_1_0_0_1_n_n none h Ws)
      (Host.dotGeneral dot_S50000x256_S256x256_S50000x256_1_0_0_1_n_n none hn Wn))
      (broadcastInDim S50000x256 ![0, 1] bcast_S1x256_S50000x256_0_1 (broadcastInDim S1x256 ![1] bcast_S256_S1x256_1 b)))
    (broadcastInDim S50000x256 ![] bcast_S_S50000x256 (constant S_ .f32 0x00000000#32))

/-- The host's dense stage is `layer`, entry by entry. -/
theorem dense_eq (h hn : FVec Ideal S50000x256 .f32) (Ws Wn : FVec Ideal S256x256 .f32) (b : FVec Ideal S256 .f32) :
    dense h hn Ws Wn b = layer (n := 50000) h hn Ws Wn b :=
  layer_of_dot (n := 50000) h hn Ws Wn b bcast_S256_S1x256_1 bcast_S1x256_S50000x256_0_1 bcast_S_S50000x256 (by decide)

/-- The two layers: each the dense stage of the features and of their in-neighbour means. -/
def sage (x : FVec Ideal S50000x256 .f32) (src dst : IVec S800000 32) (Ws0 Wn0 : FVec Ideal S256x256 .f32)
    (b0 : FVec Ideal S256 .f32) (Ws1 Wn1 : FVec Ideal S256x256 .f32) (b1 : FVec Ideal S256 .f32) :
    FVec Ideal S50000x256 .f32 :=
  layer (n := 50000) (layer (n := 50000) x (neigh x src dst) Ws0 Wn0 b0)
    (neigh (layer (n := 50000) x (neigh x src dst) Ws0 Wn0 b0) src dst) Ws1 Wn1 b1

end Cert.Sage

end
-- ==== Proof.HostFold.lean ====
/-
  The host stretches of the kernel program read as functions. Before the first launch the host computes the inverse
  in-degrees and the mean of the input features' in-neighbour rows; between the launches it computes the mean of the
  first layer's output's in-neighbour rows from the same inverse in-degrees. Read from any buffer contents `Wv` at the
  stretch's start: the buffers a stretch does not write keep their contents, and the ones it writes hold the shared
  functions `invDeg` and `neighWith` of the contents it read — the same operations, in the same order, as the
  reference's, so nothing here looks inside a gather or a scatter.
-/
import proofs.«115937_j10204842295688_1_alg».proof.Proof.Gen.KernelIdeal.Launch
import proofs.«115937_j10204842295688_1_alg».proof.Proof.Neigh
import Idealize.ShloMosaic.Lib.StableHlo.Run

set_option maxRecDepth 16384

noncomputable section

namespace Cert.KernelIdeal.HostFold

open Cert.KernelIdeal Cert.KernelIdeal.Gen Cert.Sage Idealize.ShloMosaic Idealize.ShloMosaic.TcCoe Idealize.SL.Sem
  Idealize.ShloMosaic.StableHlo

variable (Wv : Valuation τ sig (Elt Ideal))

/-! ## The first stretch: the in-degrees, the test that a degree is positive, the reciprocal of the clamped degree -/

theorem degree_positive : after (hostOps0 (F := Ideal)) Wv (Proc.devRef .tc main_v5)
    = cmpf (F := Ideal) .ogt (degree (Wv (Proc.devRef .tc main_arg2)))
        (broadcastInDim S50000 ![] bcast_S_S50000 (constant S_ .f32 0x00000000#32)) := by
  unfold hostOps0
  after_results_simp
  rfl

theorem degree_reciprocal : after (hostOps0 (F := Ideal)) Wv (Proc.devRef .tc main_v9)
    = Host.divf (broadcastInDim S50000 ![] bcast_S_S50000 (constant (F := Ideal) S_ .f32 0x3F800000#32))
        (maximumf (degree (Wv (Proc.devRef .tc main_arg2)))
          (broadcastInDim S50000 ![] bcast_S_S50000 (constant S_ .f32 0x3F800000#32))) := by
  unfold hostOps0
  after_results_simp
  rfl

theorem zero_scalar : after (hostOps0 (F := Ideal)) Wv (Proc.devRef .tc main_cst_4) = constant (F := Ideal) S_ .f32 0x00000000#32 := by
  unfold hostOps0
  after_results_simp

/-! ## The second stretch: the choice between the reciprocal and zero -/

theorem choice : after (hostOps0_1 (F := Ideal)) Wv (Proc.devRef .tc main_v10)
    = select (Wv (Proc.devRef .tc main_v5)) (Wv (Proc.devRef .tc main_v9))
        (broadcastInDim S50000 ![] bcast_S_S50000 (id (Wv (Proc.devRef .tc main_cst_4)))) := by
  unfold hostOps0_1
  after_results
  rfl

/-- After the first two stretches the inverse in-degrees' buffer holds `invDeg` of the destinations. -/
theorem start_invDeg : after (hostOps0_1 (F := Ideal)) (after (hostOps0 (F := Ideal)) Wv) (Proc.devRef .tc main_v10) = invDeg (Wv (Proc.devRef .tc main_arg2)) := by
  refine (choice (after (hostOps0 (F := Ideal)) Wv)).trans ?_
  rw [degree_positive, degree_reciprocal, zero_scalar]
  rfl

/-! ## The third stretch and the stretch between the launches: the mean of the in-neighbours' rows -/

theorem third_neigh : after (hostOps0_2 (F := Ideal)) Wv (Proc.devRef .tc main_v23)
    = neighWith (Wv (Proc.devRef .tc main_v10)) (Wv (Proc.devRef .tc main_arg0)) (Wv (Proc.devRef .tc main_arg1)) (Wv (Proc.devRef .tc main_arg2)) := by
  unfold hostOps0_2
  after_results_simp
  rfl

theorem third_keeps_main_v10 : after (hostOps0_2 (F := Ideal)) Wv (Proc.devRef .tc main_v10) = Wv (Proc.devRef .tc main_v10) := by
  unfold hostOps0_2
  after_results

/-- After the stretch between the launches, the second operand's array holds the mean, by the inverse in-degrees the
    stretch finds, of the in-neighbour rows of the first launch's output. -/
theorem second_neigh : after (hostOps1 (F := Ideal)) Wv (Proc.devRef .tc main_v37)
    = neighWith (Wv (Proc.devRef .tc main_v10)) (Wv (Proc.devRef .tc main_v24)) (Wv (Proc.devRef .tc main_arg1)) (Wv (Proc.devRef .tc main_arg2)) := by
  unfold hostOps1
  after_results_simp
  rfl

/-! ## What each stretch leaves alone -/

theorem start_keeps_main_arg0 : after (hostOps0_1 (F := Ideal)) (after (hostOps0 (F := Ideal)) Wv) (Proc.devRef .tc main_arg0) = Wv (Proc.devRef .tc main_arg0) := by
  unfold hostOps0_1 hostOps0
  after_results

theorem start_keeps_main_arg1 : after (hostOps0_1 (F := Ideal)) (after (hostOps0 (F := Ideal)) Wv) (Proc.devRef .tc main_arg1) = Wv (Proc.devRef .tc main_arg1) := by
  unfold hostOps0_1 hostOps0
  after_results

theorem start_keeps_main_arg2 : after (hostOps0_1 (F := Ideal)) (after (hostOps0 (F := Ideal)) Wv) (Proc.devRef .tc main_arg2) = Wv (Proc.devRef .tc main_arg2) := by
  unfold hostOps0_1 hostOps0
  after_results

theorem first_keeps_main_arg0 : after (hostOps0_2 (F := Ideal)) (after (hostOps0_1 (F := Ideal)) (after (hostOps0 (F := Ideal)) Wv)) (Proc.devRef .tc main_arg0) = Wv (Proc.devRef .tc main_arg0) := by
  unfold hostOps0_2 hostOps0_1 hostOps0
  after_results

theorem first_keeps_main_arg1 : after (hostOps0_2 (F := Ideal)) (after (hostOps0_1 (F := Ideal)) (after (hostOps0 (F := Ideal)) Wv)) (Proc.devRef .tc main_arg1) = Wv (Proc.devRef .tc main_arg1) := by
  unfold hostOps0_2 hostOps0_1 hostOps0
  after_results

theorem first_keeps_main_arg2 : after (hostOps0_2 (F := Ideal)) (after (hostOps0_1 (F := Ideal)) (after (hostOps0 (F := Ideal)) Wv)) (Proc.devRef .tc main_arg2) = Wv (Proc.devRef .tc main_arg2) := by
  unfold hostOps0_2 hostOps0_1 hostOps0
  after_results

theorem first_keeps_main_arg3 : after (hostOps0_2 (F := Ideal)) (after (hostOps0_1 (F := Ideal)) (after (hostOps0 (F := Ideal)) Wv)) (Proc.devRef .tc main_arg3) = Wv (Proc.devRef .tc main_arg3) := by
  unfold hostOps0_2 hostOps0_1 hostOps0
  after_results

theorem first_keeps_main_arg4 : after (hostOps0_2 (F := Ideal)) (after (hostOps0_1 (F := Ideal)) (after (hostOps0 (F := Ideal)) Wv)) (Proc.devRef .tc main_arg4) = Wv (Proc.devRef .tc main_arg4) := by
  unfold hostOps0_2 hostOps0_1 hostOps0
  after_results

theorem first_keeps_main_arg5 : after (hostOps0_2 (F := Ideal)) (after (hostOps0_1 (F := Ideal)) (after (hostOps0 (F := Ideal)) Wv)) (Proc.devRef .tc main_arg5) = Wv (Proc.devRef .tc main_arg5) := by
  unfold hostOps0_2 hostOps0_1 hostOps0
  after_results

theorem first_keeps_main_arg6 : after (hostOps0_2 (F := Ideal)) (after (hostOps0_1 (F := Ideal)) (after (hostOps0 (F := Ideal)) Wv)) (Proc.devRef .tc main_arg6) = Wv (Proc.devRef .tc main_arg6) := by
  unfold hostOps0_2 hostOps0_1 hostOps0
  after_results

theorem first_keeps_main_arg7 : after (hostOps0_2 (F := Ideal)) (after (hostOps0_1 (F := Ideal)) (after (hostOps0 (F := Ideal)) Wv)) (Proc.devRef .tc main_arg7) = Wv (Proc.devRef .tc main_arg7) := by
  unfold hostOps0_2 hostOps0_1 hostOps0
  after_results

theorem first_keeps_main_arg8 : after (hostOps0_2 (F := Ideal)) (after (hostOps0_1 (F := Ideal)) (after (hostOps0 (F := Ideal)) Wv)) (Proc.devRef .tc main_arg8) = Wv (Proc.devRef .tc main_arg8) := by
  unfold hostOps0_2 hostOps0_1 hostOps0
  after_results

theorem second_keeps_main_v24 : after (hostOps1 (F := Ideal)) Wv (Proc.devRef .tc main_v24) = Wv (Proc.devRef .tc main_v24) := by
  unfold hostOps1
  after_results

theorem second_keeps_main_arg6 : after (hostOps1 (F := Ideal)) Wv (Proc.devRef .tc main_arg6) = Wv (Proc.devRef .tc main_arg6) := by
  unfold hostOps1
  after_results

theorem second_keeps_main_arg7 : after (hostOps1 (F := Ideal)) Wv (Proc.devRef .tc main_arg7) = Wv (Proc.devRef .tc main_arg7) := by
  unfold hostOps1
  after_results

theorem second_keeps_main_arg8 : after (hostOps1 (F := Ideal)) Wv (Proc.devRef .tc main_arg8) = Wv (Proc.devRef .tc main_arg8) := by
  unfold hostOps1
  after_results

/-! ## The stretches before the first launch, composed -/

/-- After the stretches before the first launch, the inverse in-degrees' buffer holds `invDeg` of the destinations. -/
theorem first_invDeg : after (hostOps0_2 (F := Ideal)) (after (hostOps0_1 (F := Ideal)) (after (hostOps0 (F := Ideal)) Wv)) (Proc.devRef .tc main_v10) = invDeg (Wv (Proc.devRef .tc main_arg2)) :=
  (third_keeps_main_v10 (after (hostOps0_1 (F := Ideal)) (after (hostOps0 (F := Ideal)) Wv))).trans (start_invDeg Wv)

/-- After the stretches before the first launch, the second operand's array holds the mean of the input features'
    in-neighbour rows. -/
theorem first_neigh : after (hostOps0_2 (F := Ideal)) (after (hostOps0_1 (F := Ideal)) (after (hostOps0 (F := Ideal)) Wv)) (Proc.devRef .tc main_v23)
    = neigh (Wv (Proc.devRef .tc main_arg0)) (Wv (Proc.devRef .tc main_arg1)) (Wv (Proc.devRef .tc main_arg2)) := by
  refine (third_neigh (after (hostOps0_1 (F := Ideal)) (after (hostOps0 (F := Ideal)) Wv))).trans ?_
  rw [start_invDeg, start_keeps_main_arg0, start_keeps_main_arg1, start_keeps_main_arg2]
  rfl

end Cert.KernelIdeal.HostFold

end
-- ==== Proof.KernelValue.lean ====
/-
  The idealized kernel program's result as a function of its arguments. The buffer contents are folded through the
  six stretches: the host stretches before the first launch leave the arguments as launched and the first launch's
  second operand at the mean of the input features' in-neighbour rows; the first launch leaves its output array at the
  dense stage of those two; the host stretch between the launches reads that array, the edge lists and the inverse
  in-degrees computed at the start, and leaves the second launch's second operand at the mean of the first layer's
  output's in-neighbour rows; the second launch leaves the result at the dense stage again. Composed: `sage` of the
  nine arguments.
-/
import proofs.«115937_j10204842295688_1_alg».proof.Proof.KernelRun
import proofs.«115937_j10204842295688_1_alg».proof.Proof.Region0
import proofs.«115937_j10204842295688_1_alg».proof.Proof.Region1
import proofs.«115937_j10204842295688_1_alg».proof.Proof.HostFold

set_option maxRecDepth 16384

noncomputable section

namespace Cert.KernelIdeal.RunValue

open Cert.KernelIdeal Cert.KernelIdeal.Gen Cert.Sage Idealize.ShloMosaic Idealize.ShloMosaic.TcCoe Idealize.SL.Sem

variable (m : (ℓ : Loc nD τ sig) → Buf (Elt Ideal) ℓ) (ρ : Dev nD → PrngReg)

/-- The first launch's output array when the launch returns: the first layer. -/
theorem first_layer (c : Dev nD) : W4 m ρ c (Proc.devRef .tc main_v24) = (layer (n := 50000) (m ((c.tc : Thread nD τ).loc main_arg0)) (neigh (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5))) := by
  refine (W4_arr m ρ c 5).trans ?_
  refine (Region0.final (V3 m ρ) c).trans ?_
  have a0 : V3 m ρ c main_arg0 = (m ((c.tc : Thread nD τ).loc main_arg0)) := HostFold.first_keeps_main_arg0 (W0 m ρ c)
  have a3 : V3 m ρ c main_arg3 = (m ((c.tc : Thread nD τ).loc main_arg3)) := HostFold.first_keeps_main_arg3 (W0 m ρ c)
  have a4 : V3 m ρ c main_arg4 = (m ((c.tc : Thread nD τ).loc main_arg4)) := HostFold.first_keeps_main_arg4 (W0 m ρ c)
  have a5 : V3 m ρ c main_arg5 = (m ((c.tc : Thread nD τ).loc main_arg5)) := HostFold.first_keeps_main_arg5 (W0 m ρ c)
  have a23 : V3 m ρ c main_v23 = neigh (m ((c.tc : Thread nD τ).loc main_arg0)) (m ((c.tc : Thread nD τ).loc main_arg1)) (m ((c.tc : Thread nD τ).loc main_arg2)) :=
    HostFold.first_neigh (W0 m ρ c)
  rw [a0, a3, a4, a5, a23]

/-- The result array when the program returns: the two layers of the arguments. -/
theorem result_eq (c : Dev nD) : W6 m ρ c (Proc.devRef .tc main_v38)
    = sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
        (m ((c.tc : Thread nD τ).loc main_arg5)) (m ((c.tc : Thread nD τ).loc main_arg6)) (m ((c.tc : Thread nD τ).loc main_arg7)) (m ((c.tc : Thread nD τ).loc main_arg8)) := by
  refine (W6_arr m ρ c 5).trans ?_
  refine (Region1.final (V5 m ρ) c).trans ?_
  have w10 : W4 m ρ c (Proc.devRef .tc main_v10) = invDeg (m ((c.tc : Thread nD τ).loc main_arg2)) :=
    (W4_of_ne m ρ c main_v10 (by decide)).trans (HostFold.first_invDeg (W0 m ρ c))
  have w1 : W4 m ρ c (Proc.devRef .tc main_arg1) = (m ((c.tc : Thread nD τ).loc main_arg1)) :=
    (W4_of_ne m ρ c main_arg1 (by decide)).trans (HostFold.first_keeps_main_arg1 (W0 m ρ c))
  have w2 : W4 m ρ c (Proc.devRef .tc main_arg2) = (m ((c.tc : Thread nD τ).loc main_arg2)) :=
    (W4_of_ne m ρ c main_arg2 (by decide)).trans (HostFold.first_keeps_main_arg2 (W0 m ρ c))
  have b24 : V5 m ρ c main_v24 = (layer (n := 50000) (m ((c.tc : Thread nD τ).loc main_arg0)) (neigh (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5))) :=
    (HostFold.second_keeps_main_v24 (W4 m ρ c)).trans (first_layer m ρ c)
  have b37 : V5 m ρ c main_v37 = neigh (layer (n := 50000) (m ((c.tc : Thread nD τ).loc main_arg0)) (neigh (m ((c.tc : Thread nD τ).loc main_arg0)) (m ((c.tc : Thread nD τ).loc main_arg1)) (m ((c.tc : Thread nD τ).loc main_arg2)))
        (m ((c.tc : Thread nD τ).loc main_arg3)) (m ((c.tc : Thread nD τ).loc main_arg4)) (m ((c.tc : Thread nD τ).loc main_arg5))) (m ((c.tc : Thread nD τ).loc main_arg1)) (m ((c.tc : Thread nD τ).loc main_arg2)) := by
    refine (HostFold.second_neigh (W4 m ρ c)).trans ?_
    rw [first_layer m ρ c, w10, w1, w2]
    rfl
  have b6 : V5 m ρ c main_arg6 = (m ((c.tc : Thread nD τ).loc main_arg6)) :=
    (HostFold.second_keeps_main_arg6 (W4 m ρ c)).trans
      ((W4_of_ne m ρ c main_arg6 (by decide)).trans (HostFold.first_keeps_main_arg6 (W0 m ρ c)))
  have b7 : V5 m ρ c main_arg7 = (m ((c.tc : Thread nD τ).loc main_arg7)) :=
    (HostFold.second_keeps_main_arg7 (W4 m ρ c)).trans
      ((W4_of_ne m ρ c main_arg7 (by decide)).trans (HostFold.first_keeps_main_arg7 (W0 m ρ c)))
  have b8 : V5 m ρ c main_arg8 = (m ((c.tc : Thread nD τ).loc main_arg8)) :=
    (HostFold.second_keeps_main_arg8 (W4 m ρ c)).trans
      ((W4_of_ne m ρ c main_arg8 (by decide)).trans (HostFold.first_keeps_main_arg8 (W0 m ρ c)))
  rw [b24, b37, b6, b7, b8]
  rfl

/-- The run with the result read: every weakly fair execution terminates without a fault, the result array at the two
    layers of the arguments, the arguments unchanged. -/
theorem run_value : θ_run defs (onTc (τ := τ) (main (F := Ideal))) ⟨m, fun _ => 0, ρ⟩ (fun r => ∀ c : Dev nD,
      r.2.mem ((c.tc : Thread nD τ).loc main_v38)
        = sage (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
            (m ((c.tc : Thread nD τ).loc main_arg5)) (m ((c.tc : Thread nD τ).loc main_arg6)) (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(h c).1.trans (result_eq m ρ c), (h c).2⟩) (run m ρ)

end Cert.KernelIdeal.RunValue

end
-- ==== Proof.RefValue.lean ====
/-
  The reference's result as a function of its arguments. Its run ends with the result buffer at the composed term of
  its 69 host operations; grouped, that term is the dense stage of the second layer applied to the first layer's
  output and to the mean of that output's in-neighbour rows, the first layer's output being the dense stage of the
  input features and of their in-neighbour means. The grouping is by unfolding only; the dense stage in the host's
  operations is `layer` entry by entry.
-/
import proofs.«115937_j10204842295688_1_alg».proof.Proof.RefRun
import proofs.«115937_j10204842295688_1_alg».proof.Proof.Neigh

noncomputable section

namespace Cert.ReferenceIdeal.RefValue

open Cert.ReferenceIdeal Cert.Sage Idealize.ShloMosaic Idealize.ShloMosaic.TcCoe Idealize.SL.Sem

/-- The reference's result term is the two layers of its arguments. -/
theorem result_eq (m : (ℓ : Loc nD τ sig) → Buf (Elt Ideal) ℓ) (c : Dev nD) :
    Cert.ReferenceIdeal.RunP.res_main_v50 (F := Ideal) m c
      = sage (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5))
          (m ((c.tc : Thread nD τ).loc main_arg6)) (m ((c.tc : Thread nD τ).loc main_arg7))
          (m ((c.tc : Thread nD τ).loc main_arg8)) := by
  have e : Cert.ReferenceIdeal.RunP.res_main_v50 (F := Ideal) m c
      = dense (dense (m ((c.tc : Thread nD τ).loc main_arg0))
            (neigh (m ((c.tc : Thread nD τ).loc main_arg0)) (m ((c.tc : Thread nD τ).loc main_arg1))
              (m ((c.tc : Thread nD τ).loc main_arg2)))
            (m ((c.tc : Thread nD τ).loc main_arg3)) (m ((c.tc : Thread nD τ).loc main_arg4))
            (m ((c.tc : Thread nD τ).loc main_arg5)))
          (neigh (dense (m ((c.tc : Thread nD τ).loc main_arg0))
              (neigh (m ((c.tc : Thread nD τ).loc main_arg0)) (m ((c.tc : Thread nD τ).loc main_arg1))
                (m ((c.tc : Thread nD τ).loc main_arg2)))
              (m ((c.tc : Thread nD τ).loc main_arg3)) (m ((c.tc : Thread nD τ).loc main_arg4))
              (m ((c.tc : Thread nD τ).loc main_arg5)))
            (m ((c.tc : Thread nD τ).loc main_arg1)) (m ((c.tc : Thread nD τ).loc main_arg2)))
          (m ((c.tc : Thread nD τ).loc main_arg6)) (m ((c.tc : Thread nD τ).loc main_arg7))
          (m ((c.tc : Thread nD τ).loc main_arg8)) := by
    unfold Cert.ReferenceIdeal.RunP.res_main_v50 dense neigh neighWith invDeg degree
    rfl
  rw [e, dense_eq, dense_eq]
  rfl

end Cert.ReferenceIdeal.RefValue

end
-- ==== Proof.lean ====
/-
  Two layers of a mean-aggregating graph convolution on 50000 nodes with 256 features and 800000 edges: each layer maps
  the node features `h` to `max (h·Ws + hn·Wn + b) 0`, where row `v` of `hn` is the mean of the rows of `h` at
  the sources of the edges into `v` (zero for a node with no in-edge). The kernel program computes the inverse
  in-degrees, the gathers and the scattered sums on the host exactly as the reference does, and runs each layer's dense
  stage as a launch over 25 blocks of 2000 rows on the matrix unit, with operands narrowed to bf16; the reference runs
  the dense stage as two whole matrix products.

  On the extended reals the two results are one function of the nine arguments, `Cert.Sage.sage`:
  * a format change is the identity and a product into a zero accumulator is the plain sum of products, so a block's
    dense stage is `Cert.Sage.layer` of its loaded blocks (Proof/Layer.lean, Proof/Body.lean);
  * a row of the dense stage depends only on the same row of the two feature arrays, and the blocks tile the rows, so
    each launch leaves the dense stage of the whole arrays (Proof/Region0.lean, Proof/Region1.lean);
  * the host stretches are the same functions of the same buffers in both programs and are carried unopened
    (Proof/Neigh.lean, Proof/HostFold.lean), which gives the kernel program's result (Proof/KernelValue.lean over the
    run of Proof/KernelRun.lean) and the reference's (Proof/RefValue.lean over Proof/RefRun.lean).
  Each sum is taken over the same 256 positions in the same order on both sides, so no law of the extended reals beyond
  reading each operation at an index is used and the precondition (finite inputs) is never opened. The idealization
  rewrote no operation, so `preserves` states nothing; the three frames are the generated ones and the reference's
  run with its result dropped.
-/
import proofs.«115937_j10204842295688_1_alg».proof.Defs
import proofs.«115937_j10204842295688_1_alg».proof.Proof.Gen.Kernel
import proofs.«115937_j10204842295688_1_alg».proof.Proof.Gen.Kernel.Frame
import proofs.«115937_j10204842295688_1_alg».proof.Proof.Gen.KernelIdeal
import proofs.«115937_j10204842295688_1_alg».proof.Proof.Gen.KernelIdeal.Frame
import proofs.«115937_j10204842295688_1_alg».proof.Proof.Gen.ReferenceIdeal
import proofs.«115937_j10204842295688_1_alg».proof.Proof.Gen.Pre_finite_inputs
import proofs.«115937_j10204842295688_1_alg».proof.Proof.KernelValue
import proofs.«115937_j10204842295688_1_alg».proof.Proof.RefValue
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.RunP.run (F := Ideal) m ρ)

/-- The idealization rewrote no operation. -/
theorem preserves : Cert.preserves_Kernel_KernelIdeal := trivial

/-- Both programs end with the result array at the two layers of the arguments, and the arguments agree. -/
theorem algebraic : Cert.algebraic_KernelIdeal_ReferenceIdeal := by
  intro m ρ m' ρ' _ hagree
  refine ⟨_, Cert.KernelIdeal.RunValue.run_value m ρ, ?_⟩
  refine (θ_run Cert.ReferenceIdeal.defs _ _).mono (fun _ h c => ⟨(h c).1.trans ?_, (h c).2⟩)
    (Cert.ReferenceIdeal.RunP.run (F := Ideal) m' ρ')
  obtain ⟨h0, h1, h2, h3, h4, h5, h6, h7, h8⟩ := hagree c
  rw [Cert.ReferenceIdeal.RefValue.result_eq, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
